-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x625000 : Shape := ⟨2, ![2, 625000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x128 .f32) (main_arg2 : FVec F S128 .f32) (main_arg3 : IVec S2x625000 32) (main_arg4 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128 : Shape := ⟨1, ![128]⟩
abbrev S2x625000 : Shape := ⟨2, ![2, 625000]⟩
abbrev S100000 : Shape := ⟨1, ![100000]⟩
abbrev S100000x1 : Shape := ⟨2, ![100000, 1]⟩
abbrev S10000x128 : Shape := ⟨2, ![10000, 128]⟩
abbrev S10000x1 : Shape := ⟨2, ![10000, 1]⟩
abbrev S1x625000 : Shape := ⟨2, ![1, 625000]⟩
abbrev S625000 : Shape := ⟨1, ![625000]⟩
abbrev S725000 : Shape := ⟨1, ![725000]⟩
abbrev S_ : Shape := ⟨0, ![]⟩
abbrev S725000x1 : Shape := ⟨2, ![725000, 1]⟩
abbrev S725000x128 : Shape := ⟨2, ![725000, 128]⟩
abbrev S1x128 : Shape := ⟨2, ![1, 128]⟩

abbrev nBuf : Space → Nat
  | .hbm => 69
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x625000, .i32⟩
  | .hbm, ⟨4, _⟩ => ⟨S100000, .i32⟩
  | .hbm, ⟨5, _⟩ => ⟨S100000, .bf16⟩
  | .hbm, ⟨6, _⟩ => ⟨S100000x1, .bf16⟩
  | .hbm, ⟨7, _⟩ => ⟨S100000x128, .f32⟩
  | .hbm, ⟨8, _⟩ => ⟨S100000, .i32⟩
  | .hbm, ⟨9, _⟩ => ⟨S1x625000, .i32⟩
  | .hbm, ⟨10, _⟩ => ⟨S625000, .i32⟩
  | .hbm, ⟨11, _⟩ => ⟨S725000, .i32⟩
  | .hbm, ⟨12, _⟩ => ⟨S1x625000, .i32⟩
  | .hbm, ⟨13, _⟩ => ⟨S625000, .i32⟩
  | .hbm, ⟨14, _⟩ => ⟨S725000, .i32⟩
  | .hbm, ⟨15, _⟩ => ⟨S_, .f32⟩
  | .hbm, ⟨16, _⟩ => ⟨S725000, .f32⟩
  | .hbm, ⟨17, _⟩ => ⟨S_, .f32⟩
  | .hbm, ⟨18, _⟩ => ⟨S100000, .f32⟩
  | .hbm, ⟨19, _⟩ => ⟨S725000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S725000, .i32⟩
  | .hbm, ⟨34, _⟩ => ⟨S725000, .i1⟩
  | .hbm, ⟨35, _⟩ => ⟨S_, .i32⟩
  | .hbm, ⟨36, _⟩ => ⟨S725000, .i32⟩
  | .hbm, ⟨37, _⟩ => ⟨S725000, .i32⟩
  | .hbm, ⟨38, _⟩ => ⟨S725000, .i32⟩
  | .hbm, ⟨39, _⟩ => ⟨S725000x1, .i32⟩
  | .hbm, ⟨40, _⟩ => ⟨S725000, .f32⟩
  | .hbm, ⟨41, _⟩ => ⟨S_, .i32⟩
  | .hbm, ⟨42, _⟩ => ⟨S725000, .i32⟩
  | .hbm, ⟨43, _⟩ => ⟨S725000, .i1⟩
  | .hbm, ⟨44, _⟩ => ⟨S_, .i32⟩
  | .hbm, ⟨45, _⟩ => ⟨S725000, .i32⟩
  | .hbm, ⟨46, _⟩ => ⟨S725000, .i32⟩
  | .hbm, ⟨47, _⟩ => ⟨S725000, .i32⟩
  | .hbm, ⟨48, _⟩ => ⟨S725000x1, .i32⟩
  | .hbm, ⟨49, _⟩ => ⟨S725000, .f32⟩
  | .hbm, ⟨50, _⟩ => ⟨S725000, .f32⟩
  | .hbm, ⟨51, _⟩ => ⟨S_, .i32⟩
  | .hbm, ⟨52, _⟩ => ⟨S725000, .i32⟩
  | .hbm, ⟨53, _⟩ => ⟨S725000, .i1⟩
  | .hbm, ⟨54, _⟩ => ⟨S_, .i32⟩
  | .hbm, ⟨55, _⟩ => ⟨S725000, .i32⟩
  | .hbm, ⟨56, _⟩ => ⟨S725000, .i32⟩
  | .hbm, ⟨57, _⟩ => ⟨S725000, .i32⟩
  | .hbm, ⟨58, _⟩ => ⟨S725000x1, .i32⟩
  | .hbm, ⟨59, _⟩ => ⟨S725000x128, .f32⟩
  | .hbm, ⟨60, _⟩ => ⟨S725000x1, .f32⟩
  | .hbm, ⟨61, _⟩ => ⟨S725000x128, .f32⟩
  | .hbm, ⟨62, _⟩ => ⟨S725000x128, .f32⟩
  | .hbm, ⟨63, _⟩ => ⟨S_, .f32⟩
  | .hbm, ⟨64, _⟩ => ⟨S100000x128, .f32⟩
  | .hbm, ⟨65, _⟩ => ⟨S725000x1, .i32⟩
  | .hbm, ⟨66, _⟩ => ⟨S100000x128, .f32⟩
  | .hbm, ⟨67, _⟩ => ⟨S1x128, .f32⟩
  | .hbm, ⟨68, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .bf16⟩
  | .local _ .vmem, ⟨3, _⟩ => ⟨S10000x1, .bf16⟩
  | .local _ .vmem, ⟨4, _⟩ => ⟨S128x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S1x128, .f32⟩
  | .local _ .vmem, ⟨10, _⟩ => ⟨S10000x1, .bf16⟩
  | .local _ .vmem, ⟨11, _⟩ => ⟨S10000x1, .bf16⟩
  | .local _ .vmem, ⟨12, _⟩ => ⟨S10000x128, .f32⟩
  | .local _ .vmem, ⟨13, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  slices_S2x625000_S1x625000_0_0 : S2x625000.Slices ![0, 0] S1x625000
  shapeCasts_S1x625000_S625000 : S1x625000.ShapeCasts S625000
  concatenates_S625000_S100000_S725000_d0 : Shape.Concatenates [S625000, S100000] S725000 0
  slices_S2x625000_S1x625000_1_0 : S2x625000.Slices ![1, 0] S1x625000
  bcast_S_S725000 : S_.BroadcastsInDim S725000 (![] : Fin 0 → Fin S725000.rank)
  bcast_S_S100000 : S_.BroadcastsInDim S100000 (![] : Fin 0 → Fin S100000.rank)
  bcast_S725000_S725000x1_0 : S725000.BroadcastsInDim S725000x1 (![0] : Fin 1 → Fin S725000x1.rank)
  bcast_S725000x1_S725000x128_0_1 : S725000x1.BroadcastsInDim S725000x128 (![0, 1] : Fin 2 → Fin S725000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  dot_S10000x128_S128x128_S10000x128_1_0_0_1_n_n_wf : DotDims.WF S10000x128 S128x128 S10000x128 [1] [0] [0] [1] [] []
  scatter_S100000_S725000x1_S725000_n_0_0_1_wf : ScatterDims.WF S100000 S725000x1 S725000 [] [0] [0] 1
  gather_S100000_S725000x1_S725000_n_0_n_n_0_1_1_wf : GatherDims.WF S100000 S725000x1 S725000 [] [0] [] [0] [] 1 ![1]
  gather_S100000x128_S725000x1_S725000x128_1_0_n_n_0_1_1128_wf : GatherDims.WF S100000x128 S725000x1 S725000x128 [1] [0] [] [0] [] 1 ![1, 128]
  scatter_S100000x128_S725000x1_S725000x128_1_0_0_1_wf : ScatterDims.WF S100000x128 S725000x1 S725000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .bf16 = 32 ∨ (Rect.block (s := S100000x1) S10000x1.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .bf16 = 32 ∨ (Rect.block (s := S100000x1) S10000x1.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S725000x1_S725000_n_0_0_1 : ScatterDims S100000 S725000x1 S725000 where
  updateWindowDims := []
  insertedWindowDims := [0]
  scatterDimsToOperandDims := [0]
  indexVectorDim := 1
  wf := scatter_S100000_S725000x1_S725000_n_0_0_1_wf
def gather_S100000_S725000x1_S725000_n_0_n_n_0_1_1 : GatherDims S100000 S725000x1 S725000 where
  offsetDims := []
  collapsedSliceDims := [0]
  operandBatchingDims := []
  startIndicesBatchingDims := []
  startIndexMap := [0]
  indexVectorDim := 1
  sliceSizes := ![1]
  wf := gather_S100000_S725000x1_S725000_n_0_n_n_0_1_1_wf
def gather_S100000x128_S725000x1_S725000x128_1_0_n_n_0_1_1128 : GatherDims S100000x128 S725000x1 S725000x128 where
  offsetDims := [1]
  collapsedSliceDims := [0]
  operandBatchingDims := []
  startIndicesBatchingDims := []
  startIndexMap := [0]
  indexVectorDim := 1
  sliceSizes := ![1, 128]
  wf := gather_S100000x128_S725000x1_S725000x128_1_0_n_n_0_1_1128_wf
def scatter_S100000x128_S725000x1_S725000x128_1_0_0_1 : ScatterDims S100000x128 S725000x1 S725000x128 where
  updateWindowDims := [1]
  insertedWindowDims := [0]
  scatterDimsToOperandDims := [0]
  indexVectorDim := 1
  wf := scatter_S100000x128_S725000x1_S725000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x625000 : Shape := ⟨2, ![2, 625000]⟩
abbrev S100000 : Shape := ⟨1, ![100000]⟩
abbrev S100000x1 : Shape := ⟨2, ![100000, 1]⟩
abbrev S1x625000 : Shape := ⟨2, ![1, 625000]⟩
abbrev S625000 : Shape := ⟨1, ![625000]⟩
abbrev S725000 : Shape := ⟨1, ![725000]⟩
abbrev S_ : Shape := ⟨0, ![]⟩
abbrev S725000x1 : Shape := ⟨2, ![725000, 1]⟩
abbrev S725000x128 : Shape := ⟨2, ![725000, 128]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x625000, .i32⟩
  | .hbm, ⟨4, _⟩ => ⟨S100000, .i32⟩
  | .hbm, ⟨5, _⟩ => ⟨S100000, .f32⟩
  | .hbm, ⟨6, _⟩ => ⟨S100000x1, .f32⟩
  | .hbm, ⟨7, _⟩ => ⟨S100000x128, .f32⟩
  | .hbm, ⟨8, _⟩ => ⟨S100000x128, .f32⟩
  | .hbm, ⟨9, _⟩ => ⟨S100000x128, .f32⟩
  | .hbm, ⟨10, _⟩ => ⟨S100000, .i32⟩
  | .hbm, ⟨11, _⟩ => ⟨S1x625000, .i32⟩
  | .hbm, ⟨12, _⟩ => ⟨S625000, .i32⟩
  | .hbm, ⟨13, _⟩ => ⟨S725000, .i32⟩
  | .hbm, ⟨14, _⟩ => ⟨S1x625000, .i32⟩
  | .hbm, ⟨15, _⟩ => ⟨S625000, .i32⟩
  | .hbm, ⟨16, _⟩ => ⟨S725000, .i32⟩
  | .hbm, ⟨17, _⟩ => ⟨S_, .f32⟩
  | .hbm, ⟨18, _⟩ => ⟨S725000, .f32⟩
  | .hbm, ⟨19, _⟩ => ⟨S_, .f32⟩
  | .hbm, ⟨20, _⟩ => ⟨S100000, .f32⟩
  | .hbm, ⟨21, _⟩ => ⟨S725000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S725000, .i32⟩
  | .hbm, ⟨36, _⟩ => ⟨S725000, .i1⟩
  | .hbm, ⟨37, _⟩ => ⟨S_, .i32⟩
  | .hbm, ⟨38, _⟩ => ⟨S725000, .i32⟩
  | .hbm, ⟨39, _⟩ => ⟨S725000, .i32⟩
  | .hbm, ⟨40, _⟩ => ⟨S725000, .i32⟩
  | .hbm, ⟨41, _⟩ => ⟨S725000x1, .i32⟩
  | .hbm, ⟨42, _⟩ => ⟨S725000, .f32⟩
  | .hbm, ⟨43, _⟩ => ⟨S_, .i32⟩
  | .hbm, ⟨44, _⟩ => ⟨S725000, .i32⟩
  | .hbm, ⟨45, _⟩ => ⟨S725000, .i1⟩
  | .hbm, ⟨46, _⟩ => ⟨S_, .i32⟩
  | .hbm, ⟨47, _⟩ => ⟨S725000, .i32⟩
  | .hbm, ⟨48, _⟩ => ⟨S725000, .i32⟩
  | .hbm, ⟨49, _⟩ => ⟨S725000, .i32⟩
  | .hbm, ⟨50, _⟩ => ⟨S725000x1, .i32⟩
  | .hbm, ⟨51, _⟩ => ⟨S725000, .f32⟩
  | .hbm, ⟨52, _⟩ => ⟨S725000, .f32⟩
  | .hbm, ⟨53, _⟩ => ⟨S_, .i32⟩
  | .hbm, ⟨54, _⟩ => ⟨S725000, .i32⟩
  | .hbm, ⟨55, _⟩ => ⟨S725000, .i1⟩
  | .hbm, ⟨56, _⟩ => ⟨S_, .i32⟩
  | .hbm, ⟨57, _⟩ => ⟨S725000, .i32⟩
  | .hbm, ⟨58, _⟩ => ⟨S725000, .i32⟩
  | .hbm, ⟨59, _⟩ => ⟨S725000, .i32⟩
  | .hbm, ⟨60, _⟩ => ⟨S725000x1, .i32⟩
  | .hbm, ⟨61, _⟩ => ⟨S725000x128, .f32⟩
  | .hbm, ⟨62, _⟩ => ⟨S725000x1, .f32⟩
  | .hbm, ⟨63, _⟩ => ⟨S725000x128, .f32⟩
  | .hbm, ⟨64, _⟩ => ⟨S725000x128, .f32⟩
  | .hbm, ⟨65, _⟩ => ⟨S_, .f32⟩
  | .hbm, ⟨66, _⟩ => ⟨S100000x128, .f32⟩
  | .hbm, ⟨67, _⟩ => ⟨S725000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x625000_S1x625000_0_0 : S2x625000.Slices ![0, 0] S1x625000
  shapeCasts_S1x625000_S625000 : S1x625000.ShapeCasts S625000
  concatenates_S625000_S100000_S725000_d0 : Shape.Concatenates [S625000, S100000] S725000 0
  slices_S2x625000_S1x625000_1_0 : S2x625000.Slices ![1, 0] S1x625000
  bcast_S_S725000 : S_.BroadcastsInDim S725000 (![] : Fin 0 → Fin S725000.rank)
  bcast_S_S100000 : S_.BroadcastsInDim S100000 (![] : Fin 0 → Fin S100000.rank)
  bcast_S725000_S725000x1_0 : S725000.BroadcastsInDim S725000x1 (![0] : Fin 1 → Fin S725000x1.rank)
  bcast_S725000x1_S725000x128_0_1 : S725000x1.BroadcastsInDim S725000x128 (![0, 1] : Fin 2 → Fin S725000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S725000x1_S725000_n_0_0_1_wf : ScatterDims.WF S100000 S725000x1 S725000 [] [0] [0] 1
  gather_S100000_S725000x1_S725000_n_0_n_n_0_1_1_wf : GatherDims.WF S100000 S725000x1 S725000 [] [0] [] [0] [] 1 ![1]
  gather_S100000x128_S725000x1_S725000x128_1_0_n_n_0_1_1128_wf : GatherDims.WF S100000x128 S725000x1 S725000x128 [1] [0] [] [0] [] 1 ![1, 128]
  scatter_S100000x128_S725000x1_S725000x128_1_0_0_1_wf : ScatterDims.WF S100000x128 S725000x1 S725000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S725000x1_S725000_n_0_0_1 : ScatterDims S100000 S725000x1 S725000 where
  updateWindowDims := []
  insertedWindowDims := [0]
  scatterDimsToOperandDims := [0]
  indexVectorDim := 1
  wf := scatter_S100000_S725000x1_S725000_n_0_0_1_wf
def gather_S100000_S725000x1_S725000_n_0_n_n_0_1_1 : GatherDims S100000 S725000x1 S725000 where
  offsetDims := []
  collapsedSliceDims := [0]
  operandBatchingDims := []
  startIndicesBatchingDims := []
  startIndexMap := [0]
  indexVectorDim := 1
  sliceSizes := ![1]
  wf := gather_S100000_S725000x1_S725000_n_0_n_n_0_1_1_wf
def gather_S100000x128_S725000x1_S725000x128_1_0_n_n_0_1_1128 : GatherDims S100000x128 S725000x1 S725000x128 where
  offsetDims := [1]
  collapsedSliceDims := [0]
  operandBatchingDims := []
  startIndicesBatchingDims := []
  startIndexMap := [0]
  indexVectorDim := 1
  sliceSizes := ![1, 128]
  wf := gather_S100000x128_S725000x1_S725000x128_1_0_n_n_0_1_1128_wf
def scatter_S100000x128_S725000x1_S725000x128_1_0_0_1 : ScatterDims S100000x128 S725000x1 S725000x128 where
  updateWindowDims := [1]
  insertedWindowDims := [0]
  scatterDimsToOperandDims := [0]
  indexVectorDim := 1
  wf := scatter_S100000x128_S725000x1_S725000x128_1_0_0_1_wf

class Facts : Prop extends Facts₀ where

variable [Facts]
-- ==== Proof.KernelRun.lean ====
/-
  The idealized kernel program runs to the end, and its result array then holds what the second launch's write-backs
  leave in it.

  The program is a chain of six segments: the mask's conversion, the first launch (the masked product), three stretches
  of host operations (the degree normalisation and the neighbour aggregation), the second launch (bias and mask). The
  buffer contents at each boundary are a fold from the launch memory; the last boundary's contents at the result's
  buffer are the second launch's output array after its last grid point. Every weakly fair execution terminates without
  a fault in a state whose result buffer holds exactly that, and whose argument buffers are as launched.
-/
import proofs.«177808_j65816078844665_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying the launch theorem's conclusion with this statement unfolds plain definitions in a metavariable's type
set_option backward.isDefEq.respectTransparency.types false in
/-- Every weakly fair execution of the program terminates, nothing faulting; the result buffer then holds the last
    boundary's contents (the second launch's output array after its last point) and each argument is as launched. -/
theorem run_result : θ_run defs (onTc (τ := τ) (main (F := F))) ⟨m, fun _ => 0, ρ⟩ (fun r => ∀ c : Dev nD,
      r.2.mem ((c.tc : Thread nD τ).loc main_v49) = W6 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v49 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Hand

end
-- ==== Proof.Payloads.lean ====
/-
  The two kernel bodies as functions of their loaded blocks, read at one index, on the extended reals.

  The first body multiplies each row of its block of `x` by that row's mask entry (a column block, broadcast along
  the lanes) and contracts the product with the whole weight matrix into a zero accumulator: at row `p`, lane `q`
  the stored value is  ∑ₖ (x[p,k] · mask[p]) · W[k,q].  The narrowing of both operands to bf16 is the identity here.

  The second body adds the one-row bias block to every row of its block of the aggregate and multiplies by the row's
  mask entry (widened from bf16: the identity):  (agg[p,q] + bias[0,q]) · mask[p].
-/
import proofs.«177808_j65816078844665_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- A column `[a, 1]` broadcast along the second axis to `[a, b]` reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : Nat) = 1 then 0 else c.val
    rw [if_pos rfl]

/-- Coordinates of the two operands' indices in the contraction: the left operand's row is the output's row and its lane
    the contraction position; the right operand's row is the contraction position and its lane the output's lane. -/
theorem lhs_row (i : S10000x128.Idx) (r : dot_S10000x128_S128x128_S10000x128_1_0_0_1_n_n.contr.Idx) :
    (dot_S10000x128_S128x128_S10000x128_1_0_0_1_n_n.lhsIdx i r 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs_lane (i : S10000x128.Idx) (r : dot_S10000x128_S128x128_S10000x128_1_0_0_1_n_n.contr.Idx) :
    (dot_S10000x128_S128x128_S10000x128_1_0_0_1_n_n.lhsIdx i r 1).val = (r ⟨0, by decide⟩).val :=
  dot_S10000x128_S128x128_S10000x128_1_0_0_1_n_n.lhsIdx_val_of_single rfl i r
theorem rhs_row (i : S10000x128.Idx) (r : dot_S10000x128_S128x128_S10000x128_1_0_0_1_n_n.contr.Idx) :
    (dot_S10000x128_S128x128_S10000x128_1_0_0_1_n_n.rhsIdx i r 0).val = (r ⟨0, by decide⟩).val :=
  dot_S10000x128_S128x128_S10000x128_1_0_0_1_n_n.rhsIdx_val_of_single rfl i r
theorem rhs_lane (i : S10000x128.Idx) (r : dot_S10000x128_S128x128_S10000x128_1_0_0_1_n_n.contr.Idx) :
    (dot_S10000x128_S128x128_S10000x128_1_0_0_1_n_n.rhsIdx i r 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The left operand of the contraction at output index `(p, q)` and contraction position `k` is entry `(p, k)`. -/
theorem lhs_at (p : Fin 10000) (q : Fin 128) (k : Fin 128) :
    dot_S10000x128_S128x128_S10000x128_1_0_0_1_n_n.lhsIdx (ix2 p q)
      ((contrEquiv1 dot_S10000x128_S128x128_S10000x128_1_0_0_1_n_n 128 rfl rfl).symm k) = ix2 p k := by
  have hk := contrEquiv1_symm_val dot_S10000x128_S128x128_S10000x128_1_0_0_1_n_n 128 rfl rfl k
  refine funext fun a => Fin.ext ?_
  match a with
  | ⟨0, _⟩ => exact lhs_row _ _
  | ⟨1, _⟩ => exact (lhs_lane _ _).trans hk

/-- The right operand there is entry `(k, q)`. -/
theorem rhs_at (p : Fin 10000) (q : Fin 128) (k : Fin 128) :
    dot_S10000x128_S128x128_S10000x128_1_0_0_1_n_n.rhsIdx (ix2 p q)
      ((contrEquiv1 dot_S10000x128_S128x128_S10000x128_1_0_0_1_n_n 128 rfl rfl).symm k) = ix2 k q := by
  have hk := contrEquiv1_symm_val dot_S10000x128_S128x128_S10000x128_1_0_0_1_n_n 128 rfl rfl k
  refine funext fun a => Fin.ext ?_
  match a with
  | ⟨0, _⟩ => exact (rhs_row _ _).trans hk
  | ⟨1, _⟩ => exact rhs_lane _ _

/-- The masked product: row `p`, lane `q` of what the first body stores is the sum over `k` of
    `(x[p,k] · mask[p]) · W[k,q]` of its three loaded blocks. -/
theorem masked_product_apply (xb : Vec Ideal S10000x128 .f32) (mb : Vec Ideal S10000x1 .bf16) (wb : Vec Ideal S128x128 .f32)
    (p : Fin 10000) (q : Fin 128) :
    k0_pay1 (F := Ideal) xb mb wb (ix2 p q) = ∑ k : Fin 128, (xb (ix2 p k) * mb (ix2 p (0 : Fin 1))) * wb (ix2 k q) := by
  unfold k0_pay1
  refine (Ideal.matmul_constant_zero_apply dot_S10000x128_S128x128_S10000x128_1_0_0_1_n_n none _ _ (ix2 p q)).trans ?_
  rw [← Equiv.sum_comp (contrEquiv1 dot_S10000x128_S128x128_S10000x128_1_0_0_1_n_n 128 rfl rfl).symm]
  refine Finset.sum_congr rfl fun k _ => ?_
  rw [lhs_at p q k, rhs_at p q k, mulf_apply, truncf_apply, truncf_apply, broadcastTo_col_apply, shapeCast_self]

/-- The finish: row `p`, lane `q` of what the second body stores is `(agg[p,q] + bias[0,q]) · mask[p]` of its three
    loaded blocks. -/
theorem finish_apply (bb : Vec Ideal S1x128 .f32) (mb : Vec Ideal S10000x1 .bf16) (ab : Vec Ideal S10000x128 .f32)
    (p : Fin 10000) (q : Fin 128) :
    k1_pay1 (F := Ideal) bb mb ab (ix2 p q) = (ab (ix2 p q) + bb (ix2 (0 : Fin 1) q)) * mb (ix2 p (0 : Fin 1)) := by
  unfold k1_pay1
  rw [mulf_apply, addf_apply, broadcastTo_col_apply, extf_apply, broadcastTo_1b_ab_apply, shapeCast_self, shapeCast_self,
    shapeCast_self, shapeCast_self]

end Cert.KernelIdeal.Hand

end
-- ==== Proof.Spec.lean ====
/-
  What the kernel and its reference both compute, as functions of the argument arrays, index by index, on the
  extended reals.

  With  m[r]  the node mask read as a signed integer (a real number),  x  the node features,  W  the weights and
  b  the bias:

    hidden[r, c]  =  ∑ₖ (x[r, k] · m[r]) · W[k, c]                     (the masked linear transform)
    out[r, c]     =  (agg[r, c] + b[c]) · m[r]                          (bias, then the mask again)

  where  agg  is the normalised neighbour aggregation of  hidden  over the edge list — the same chain of host
  operations in both programs, which is carried as one function and never opened. The mask and the bias enter the
  two launches as a column `[n, 1]` and a row `[1, d]`; `maskColumn` and `biasRow` are those.
-/
import Idealize.ShloMosaic.PureOps.Ideal
import Idealize.ShloMosaic.Lib.ValueIdx

noncomputable section

open scoped BigOperators

namespace Cert.Spec

open Idealize.ShloMosaic Idealize.ShloMosaic.ValueIdx

/-- The first and second coordinate of a rank-2 index, at their literal extents. -/
abbrev row {n0 n1 : Nat} (i : (⟨2, ![n0, n1]⟩ : Shape).Idx) : Fin n0 := ⟨(i 0).val, (i 0).isLt⟩
abbrev lane {n0 n1 : Nat} (i : (⟨2, ![n0, n1]⟩ : Shape).Idx) : Fin n1 := ⟨(i 1).val, (i 1).isLt⟩

/-- The node mask as a column of reals: entry `(r, 0)` is the integer `mask[r]` read signed. -/
def maskColumn (mask : (⟨1, ![100000]⟩ : Shape).Idx → BitVec 32) : (⟨2, ![100000, 1]⟩ : Shape).Idx → EReal :=
  fun i => (((mask (ix1 (row i))).toInt : ℝ) : EReal)

/-- The bias as one row: entry `(0, c)` is `bias[c]`. -/
def biasRow (bias : (⟨1, ![128]⟩ : Shape).Idx → EReal) : (⟨2, ![1, 128]⟩ : Shape).Idx → EReal :=
  fun i => bias (ix1 (lane i))

/-- The masked linear transform: `∑ₖ (x[r, k] · mc[r, 0]) · w[k, c]`. -/
def maskedProduct (x : (⟨2, ![100000, 128]⟩ : Shape).Idx → EReal) (mc : (⟨2, ![100000, 1]⟩ : Shape).Idx → EReal)
    (w : (⟨2, ![128, 128]⟩ : Shape).Idx → EReal) : (⟨2, ![100000, 128]⟩ : Shape).Idx → EReal :=
  fun i => ∑ k : Fin 128, (x (ix2 (row i) k) * mc (ix2 (row i) (0 : Fin 1))) * w (ix2 k (lane i))

/-- Bias, then the mask: `(agg[r, c] + b[0, c]) · mc[r, 0]`. -/
def finish (agg : (⟨2, ![100000, 128]⟩ : Shape).Idx → EReal) (b : (⟨2, ![1, 128]⟩ : Shape).Idx → EReal)
    (mc : (⟨2, ![100000, 1]⟩ : Shape).Idx → EReal) : (⟨2, ![100000, 128]⟩ : Shape).Idx → EReal :=
  fun i => (agg i + b (ix2 (0 : Fin 1) (lane i))) * mc (ix2 (row i) (0 : Fin 1))

end Cert.Spec

end
-- ==== Proof.HiddenArray.lean ====
/-
  The first launch's output array, whole: after its ten grid points the array holds the masked linear transform of
  the three arrays the launch reads.

  Grid point `t` stages rows `10000·t … 10000·t + 9999` of the features and of the mask column, the whole weight
  matrix, and writes back rows `10000·t …` of the output. What it writes back is, row by row, the masked product of
  those rows — so it is block `t` of ONE function of the whole arrays; the ten blocks tile the array.
-/
import proofs.«177808_j65816078844665_1_alg».proof.Proof.Gen.KernelIdeal.Frame
import proofs.«177808_j65816078844665_1_alg».proof.Proof.Payloads
import proofs.«177808_j65816078844665_1_alg».proof.Proof.Spec

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The block index of each window of the first launch at grid point `t`: the row-blocked windows (features, mask
    column, output) are at block row `t`, the weight matrix at its one block. -/
theorem block_rows0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point `t` writes back is block `t` of the masked product of the arrays as the launch finds them. -/
theorem hidden_flushed (c : Dev nD) (t : Fin cfg0.N) :
    (dat0 V c).flushed 3 t = ((cfg0.win 3).blk t).view.read (Elt Ideal)
      (maskedProduct (V c main_arg0) (V c main_v1) (V c main_arg1)) := by
  show (cfg0.win 3).cut (grid0.coords t) ((dat0 V c).after 3 t) = _
  rw [after0_3]
  unfold out0_3
  rw [View.canon_unit_zero origin2]
  simp only [View.ld_unit_zero (S := S10000x128) origin2, View.ld_unit_zero (S := S10000x1) origin2,
    View.ld_unit_zero (S := S128x128) origin2]
  obtain ⟨e00, e01, e10, e11, e20, e21, e30, e31⟩ := block_rows0 t
  have hN : grid0.N = 10 := N_0
  have ht : t.val < 10 := hN ▸ t.isLt
  funext j
  obtain ⟨p, q, rfl⟩ : ∃ (p : Fin 10000) (q : Fin 128), j = ix2 p q := ⟨j 0, j 1, eq_ix2 j⟩
  show k0_pay1 (iblk0 V c 0 t) (iblk0 V c 1 t) (iblk0 V c 2 t) (ix2 p q)
    = maskedProduct (V c main_arg0) (V c main_v1) (V c main_arg1) (((cfg0.win 3).blk t).view.emb (ix2 p q))
  refine (masked_product_apply _ _ _ p q).trans ?_
  unfold maskedProduct
  refine Finset.sum_congr rfl fun k _ => ?_
  have ex : iblk0 V c 0 t (ix2 p k) = V c main_arg0 (ix2 (row (((cfg0.win 3).blk t).view.emb (ix2 p q))) k) := by
    show V c main_arg0 (((cfg0.win 0).blk t).view.emb (ix2 p k)) = _
    refine congrArg (V c main_arg0) (funext fun a => Fin.ext ?_)
    match a with
    | ⟨0, _⟩ =>
      show win0_0.index t (0 : Fin 2) * 10000 + 1 * p.val = win0_3.index t (0 : Fin 2) * 10000 + 1 * p.val
      omega
    | ⟨1, _⟩ =>
      show win0_0.index t (1 : Fin 2) * 128 + 1 * k.val = k.val
      omega
  have em : iblk0 V c 1 t (ix2 p (0 : Fin 1)) = V c main_v1 (ix2 (row (((cfg0.win 3).blk t).view.emb (ix2 p q))) (0 : Fin 1)) := by
    show V c main_v1 (((cfg0.win 1).blk t).view.emb (ix2 p (0 : Fin 1))) = _
    refine congrArg (V c main_v1) (funext fun a => Fin.ext ?_)
    match a with
    | ⟨0, _⟩ =>
      show win0_1.index t (0 : Fin 2) * 10000 + 1 * p.val = win0_3.index t (0 : Fin 2) * 10000 + 1 * p.val
      omega
    | ⟨1, _⟩ =>
      show win0_1.index t (1 : Fin 2) * 1 + 1 * 0 = 0
      omega
  have ew : iblk0 V c 2 t (ix2 k q) = V c main_arg1 (ix2 k (lane (((cfg0.win 3).blk t).view.emb (ix2 p q)))) := by
    show V c main_arg1 (((cfg0.win 2).blk t).view.emb (ix2 k q)) = _
    refine congrArg (V c main_arg1) (funext fun a => Fin.ext ?_)
    match a with
    | ⟨0, _⟩ =>
      show win0_2.index t (0 : Fin 2) * 128 + 1 * k.val = k.val
      omega
    | ⟨1, _⟩ =>
      show win0_2.index t (1 : Fin 2) * 128 + 1 * q.val = win0_3.index t (1 : Fin 2) * 128 + 1 * q.val
      omega
  rw [ex, em, ew]

/-- An index of the output array is in point `t`'s block iff each coordinate is in the block's range on its axis. -/
theorem mem_hidden_block (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v2).slice (win0_3.rect t)).set ↔ _
  rw [View.set_slice_whole, Rect.mem_set_unit]
  exact Iff.rfl

/-- Every row of the output array lies in the block of the grid point `row / 10000`. -/
theorem hidden_cover (i : S100000x128.Idx) :
    ∃ t : Fin cfg0.N, (cfg0.win 3).flush t = true ∧ i ∈ ((cfg0.win 3).blk t).view.set := by
  have hN : grid0.N = 10 := N_0
  have hi0 : (i 0).val < 100000 := (i 0).isLt
  have hi1 : (i 1).val < 128 := (i 1).isLt
  let t : Fin cfg0.N := ⟨(i 0).val / 10000, by show (i 0).val / 10000 < grid0.N; rw [hN]; omega⟩
  obtain ⟨-, -, -, -, -, -, e30, e31⟩ := block_rows0 t
  have htv : t.val = (i 0).val / 10000 := rfl
  refine ⟨t, flush0_3 t, ?_⟩
  rw [mem_hidden_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

/-- After the first launch its output array IS the masked product of the arrays it was entered with. -/
theorem hidden_array (c : Dev nD) :
    (dat0 V c).arrAt 3 cfg0.N = maskedProduct (V c main_arg0) (V c main_v1) (V c main_arg1) :=
  (dat0 V c).arrAt_eq_of_cover 3 _ (fun t _ => hidden_flushed V c t) hidden_cover

end Cert.KernelIdeal.Hand

end
-- ==== Proof.OutArray.lean ====
/-
  The second launch's output array, whole: after its ten grid points the array holds, index by index,
  (agg + bias) · mask of the three arrays the launch reads.

  Grid point `t` stages rows `10000·t … 10000·t + 9999` of the aggregate and of the mask column, the one bias row,
  and writes back the same rows of the output; what it writes back is block `t` of ONE function of the whole arrays,
  and the ten blocks tile the array.
-/
import proofs.«177808_j65816078844665_1_alg».proof.Proof.Gen.KernelIdeal.Frame
import proofs.«177808_j65816078844665_1_alg».proof.Proof.Payloads
import proofs.«177808_j65816078844665_1_alg».proof.Proof.Spec

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem origin2' : (![0, 0] : Fin 2 → Nat) = fun _ => 0 := funext fun a => by fin_cases a <;> rfl

/-- The block index of each window of the second launch at grid point `t`: the row-blocked windows (aggregate, mask
    column, output) are at block row `t`, the bias row at its one block. -/
theorem block_rows1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What grid point `t` writes back is block `t` of `(agg + bias) · mask` of the arrays as the launch finds them. -/
theorem out_flushed (c : Dev nD) (t : Fin cfg1.N) :
    (dat1 V c).flushed 3 t = ((cfg1.win 3).blk t).view.read (Elt Ideal)
      (finish (V c main_v47) (V c main_v48) (V c main_v1)) := by
  show (cfg1.win 3).cut (grid1.coords t) ((dat1 V c).after 3 t) = _
  rw [after1_3]
  unfold out1_3
  rw [View.canon_unit_zero origin2']
  simp only [View.ld_unit_zero (S := S10000x128) origin2', View.ld_unit_zero (S := S10000x1) origin2',
    View.ld_unit_zero (S := S1x128) origin2']
  obtain ⟨e00, e01, e10, e11, e20, e21, e30, e31⟩ := block_rows1 t
  have hN : grid1.N = 10 := N_1
  have ht : t.val < 10 := hN ▸ t.isLt
  funext j
  obtain ⟨p, q, rfl⟩ : ∃ (p : Fin 10000) (q : Fin 128), j = ix2 p q := ⟨j 0, j 1, eq_ix2 j⟩
  show k1_pay1 (iblk1 V c 1 t) (iblk1 V c 2 t) (iblk1 V c 0 t) (ix2 p q)
    = finish (V c main_v47) (V c main_v48) (V c main_v1) (((cfg1.win 3).blk t).view.emb (ix2 p q))
  refine (finish_apply _ _ _ p q).trans ?_
  unfold finish
  have ea : iblk1 V c 0 t (ix2 p q) = V c main_v47 (((cfg1.win 3).blk t).view.emb (ix2 p q)) := by
    show V c main_v47 (((cfg1.win 0).blk t).view.emb (ix2 p q)) = _
    refine congrArg (V c main_v47) (funext fun a => Fin.ext ?_)
    match a with
    | ⟨0, _⟩ =>
      show win1_0.index t (0 : Fin 2) * 10000 + 1 * p.val = win1_3.index t (0 : Fin 2) * 10000 + 1 * p.val
      omega
    | ⟨1, _⟩ =>
      show win1_0.index t (1 : Fin 2) * 128 + 1 * q.val = win1_3.index t (1 : Fin 2) * 128 + 1 * q.val
      omega
  have eb : iblk1 V c 1 t (ix2 (0 : Fin 1) q) = V c main_v48 (ix2 (0 : Fin 1) (lane (((cfg1.win 3).blk t).view.emb (ix2 p q)))) := by
    show V c main_v48 (((cfg1.win 1).blk t).view.emb (ix2 (0 : Fin 1) q)) = _
    refine congrArg (V c main_v48) (funext fun a => Fin.ext ?_)
    match a with
    | ⟨0, _⟩ =>
      show win1_1.index t (0 : Fin 2) * 1 + 1 * 0 = 0
      omega
    | ⟨1, _⟩ =>
      show win1_1.index t (1 : Fin 2) * 128 + 1 * q.val = win1_3.index t (1 : Fin 2) * 128 + 1 * q.val
      omega
  have em : iblk1 V c 2 t (ix2 p (0 : Fin 1)) = V c main_v1 (ix2 (row (((cfg1.win 3).blk t).view.emb (ix2 p q))) (0 : Fin 1)) := by
    show V c main_v1 (((cfg1.win 2).blk t).view.emb (ix2 p (0 : Fin 1))) = _
    refine congrArg (V c main_v1) (funext fun a => Fin.ext ?_)
    match a with
    | ⟨0, _⟩ =>
      show win1_2.index t (0 : Fin 2) * 10000 + 1 * p.val = win1_3.index t (0 : Fin 2) * 10000 + 1 * p.val
      omega
    | ⟨1, _⟩ =>
      show win1_2.index t (1 : Fin 2) * 1 + 1 * 0 = 0
      omega
  rw [ea, eb, em]

/-- An index of the output array is in point `t`'s block iff each coordinate is in the block's range on its axis. -/
theorem mem_out_block (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v49).slice (win1_3.rect t)).set ↔ _
  rw [View.set_slice_whole, Rect.mem_set_unit]
  exact Iff.rfl

/-- Every row of the output array lies in the block of the grid point `row / 10000`. -/
theorem out_cover (i : S100000x128.Idx) :
    ∃ t : Fin cfg1.N, (cfg1.win 3).flush t = true ∧ i ∈ ((cfg1.win 3).blk t).view.set := by
  have hN : grid1.N = 10 := N_1
  have hi0 : (i 0).val < 100000 := (i 0).isLt
  have hi1 : (i 1).val < 128 := (i 1).isLt
  let t : Fin cfg1.N := ⟨(i 0).val / 10000, by show (i 0).val / 10000 < grid1.N; rw [hN]; omega⟩
  obtain ⟨-, -, -, -, -, -, e30, e31⟩ := block_rows1 t
  have htv : t.val = (i 0).val / 10000 := rfl
  refine ⟨t, flush1_3 t, ?_⟩
  rw [mem_out_block]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 128 ≤ (i 1).val ∧ (i 1).val < win1_3.index t (1 : Fin 2) * 128 + 128
    omega

/-- After the second launch its output array IS `(agg + bias) · mask` of the arrays it was entered with. -/
theorem out_array (c : Dev nD) :
    (dat1 V c).arrAt 3 cfg1.N = finish (V c main_v47) (V c main_v48) (V c main_v1) :=
  (dat1 V c).arrAt_eq_of_cover 3 _ (fun t _ => out_flushed V c t) out_cover

end Cert.KernelIdeal.Hand

end
-- ==== Proof.AggregateKernel.lean ====
/-
  The neighbour aggregation, as the kernel's program applies it to the hidden array: a function of the hidden array `h` and the
  edge list `ei`, cut at its seams and otherwise never opened.

  `sources` / `targets` are the edge list's two rows, each followed by the self loops `0 … n-1`. The degree of a node is
  the number of edges arriving at it (a scatter-add of ones over the targets); `positive` marks the nodes of positive
  degree and `invSqrt` is `rsqrt (max degree 1)`. `gatherScatter` forms, per edge, the message
  `h[source] · (dinv[source] · dinv[target])` with `dinv = positive ? invSqrt : 0` (an index below zero wrapped once by
  `n`), and scatter-adds the messages into a zero array at the targets.
-/
import proofs.«177808_j65816078844665_1_alg».proof.Proof.Gen.KernelIdeal

set_option maxRecDepth 8192

noncomputable section

namespace Cert.KernelIdeal.Hand

open Cert.KernelIdeal Cert.KernelIdeal.Gen Idealize.ShloMosaic

variable {F : FTy → Type} [FloatOps F]

/-- The edge list's first row followed by the self loops. -/
def sources (ei : IVec S2x625000 32) : IVec S725000 32 :=
  (concatenate S725000 0 [⟨S625000, (shapeCast _ (extractStridedSlice S1x625000 ![0, 0] ei slices_S2x625000_S1x625000_0_0) shapeCasts_S1x625000_S625000)⟩, ⟨S100000, (iotaInDim S100000 32 0)⟩] concatenates_S625000_S100000_S725000_d0)

/-- The edge list's second row followed by the self loops. -/
def targets (ei : IVec S2x625000 32) : IVec S725000 32 :=
  (concatenate S725000 0 [⟨S625000, (shapeCast _ (extractStridedSlice S1x625000 ![1, 0] ei slices_S2x625000_S1x625000_1_0) shapeCasts_S1x625000_S625000)⟩, ⟨S100000, (iotaInDim S100000 32 0)⟩] concatenates_S625000_S100000_S725000_d0)

/-- The nodes at which some edge arrives: the count of arriving edges (a scatter-add of ones into zeros) is positive. -/
def positive (d : IVec S725000 32) : IVec S100000 1 :=
  (cmpf (F := F) .ogt (Host.scatterAdd scatter_S100000_S725000x1_S725000_n_0_0_1 (broadcastInDim S100000 ![] bcast_S_S100000 (constant S_ .f32 0x00000000#32)) (broadcastInDim S725000x1 ![0] bcast_S725000_S725000x1_0 d) (broadcastInDim S725000 ![] bcast_S_S725000 (constant S_ .f32 0x3F800000#32))) (broadcastInDim S100000 ![] bcast_S_S100000 (constant S_ .f32 0x00000000#32)))

/-- `rsqrt (max degree 1)` of the same count. -/
def invSqrt (d : IVec S725000 32) : FVec F S100000 .f32 :=
  (Host.rsqrt (maximumf (Host.scatterAdd scatter_S100000_S725000x1_S725000_n_0_0_1 (broadcastInDim S100000 ![] bcast_S_S100000 (constant S_ .f32 0x00000000#32)) (broadcastInDim S725000x1 ![0] bcast_S725000_S725000x1_0 d) (broadcastInDim S725000 ![] bcast_S_S725000 (constant S_ .f32 0x3F800000#32))) (broadcastInDim S100000 ![] bcast_S_S100000 (constant S_ .f32 0x3F800000#32))))

/-- Gather the hidden rows at the sources, scale each by the two end points' normalisers, scatter-add at the targets. -/
def gatherScatter (h : FVec F S100000x128 .f32) (s d : IVec S725000 32) (pos : IVec S100000 1) (rs : FVec F S100000 .f32)
    (z : FVec F S_ .f32) : FVec F S100000x128 .f32 :=
  (Host.scatterAdd scatter_S100000x128_S725000x1_S725000x128_1_0_0_1 (broadcastInDim S100000x128 ![] bcast_S_S100000x128 (constant S_ .f32 0x00000000#32)) (broadcastInDim S725000x1 ![0] bcast_S725000_S725000x1_0 d) (mulf (Host.gather gather_S100000x128_S725000x1_S725000x128_1_0_n_n_0_1_1128 h (broadcastInDim S725000x1 ![0] bcast_S725000_S725000x1_0 (select (cmpi .slt s (broadcastInDim S725000 ![] bcast_S_S725000 (constantI S_ 32 0#32))) (addi s (broadcastInDim S725000 ![] bcast_S_S725000 (constantI S_ 32 100000#32))) s))) (broadcastInDim S725000x128 ![0, 1] bcast_S725000x1_S725000x128_0_1 (broadcastInDim S725000x1 ![0] bcast_S725000_S725000x1_0 (mulf (Host.gather gather_S100000_S725000x1_S725000_n_0_n_n_0_1_1 (select pos rs (broadcastInDim S100000 ![] bcast_S_S100000 (id z))) (broadcastInDim S725000x1 ![0] bcast_S725000_S725000x1_0 (select (cmpi .slt s (broadcastInDim S725000 ![] bcast_S_S725000 (constantI S_ 32 0#32))) (addi s (broadcastInDim S725000 ![] bcast_S_S725000 (constantI S_ 32 100000#32))) s))) (Host.gather gather_S100000_S725000x1_S725000_n_0_n_n_0_1_1 (select pos rs (broadcastInDim S100000 ![] bcast_S_S100000 (id z))) (broadcastInDim S725000x1 ![0] bcast_S725000_S725000x1_0 (select (cmpi .slt d (broadcastInDim S725000 ![] bcast_S_S725000 (constantI S_ 32 0#32))) (addi d (broadcastInDim S725000 ![] bcast_S_S725000 (constantI S_ 32 100000#32))) d))))))))

/-- The normalised neighbour aggregation of `h` over the edge list `ei`. -/
def aggregate (h : FVec F S100000x128 .f32) (ei : IVec S2x625000 32) : FVec F S100000x128 .f32 :=
  gatherScatter h (sources ei) (targets ei) (positive (F := F) (targets ei)) (invSqrt (targets ei)) (constant S_ .f32 0x00000000#32)

end Cert.KernelIdeal.Hand

end
-- ==== Proof.HostStretches.lean ====
/-
  What the host operations between the two launches compute, read one stretch at a time from ANY buffer contents
  `Vm` at the stretch's start.

  The first stretch builds the edge ends from the edge list (the only place an operand list of a `concatenate` occurs),
  the arrival counts and their two derived vectors; the called `where` and the last stretch form the messages and
  scatter them. Stated over an arbitrary valuation, each equation is a short computation ending in a syntactic identity.
-/
import proofs.«177808_j65816078844665_1_alg».proof.Proof.Gen.KernelIdeal.Launch
import proofs.«177808_j65816078844665_1_alg».proof.Proof.AggregateKernel
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F]
variable (Vm : Valuation τ sig (Elt F))

/-! ## The first stretch: edge ends, arrival counts -/

theorem stretch1_sources :
    StableHlo.after (hostOps1 (F := F)) Vm (Proc.devRef .tc main_v6) = sources (Vm (Proc.devRef .tc main_arg3)) := by
  dsimp only [hostOps1]
  after_results
  rfl

theorem stretch1_targets :
    StableHlo.after (hostOps1 (F := F)) Vm (Proc.devRef .tc main_v9) = targets (Vm (Proc.devRef .tc main_arg3)) := by
  dsimp only [hostOps1]
  after_results
  rfl

theorem stretch1_positive :
    StableHlo.after (hostOps1 (F := F)) Vm (Proc.devRef .tc main_v15) = positive (F := F) (targets (Vm (Proc.devRef .tc main_arg3))) := by
  dsimp only [hostOps1]
  after_results
  rfl

theorem stretch1_invSqrt :
    StableHlo.after (hostOps1 (F := F)) Vm (Proc.devRef .tc main_v18) = invSqrt (F := F) (targets (Vm (Proc.devRef .tc main_arg3))) := by
  dsimp only [hostOps1]
  after_results
  rfl

theorem stretch1_zero :
    StableHlo.after (hostOps1 (F := F)) Vm (Proc.devRef .tc main_cst_3) = constant (F := F) S_ .f32 0x00000000#32 := by
  dsimp only [hostOps1]
  after_results

/-- The first launch's output array is not written by the first stretch. -/
theorem stretch1_hidden :
    StableHlo.after (hostOps1 (F := F)) Vm (Proc.devRef .tc main_v2) = Vm (Proc.devRef .tc main_v2) := by
  dsimp only [hostOps1]
  after_results

/-! ## The called `where` and the last stretch: messages, scattered -/

theorem stretch23_aggregate :
    StableHlo.after (hostOps1_2 (F := F)) (StableHlo.after (hostOps1_1 (F := F)) Vm) (Proc.devRef .tc main_v47)
      = gatherScatter (Vm (Proc.devRef .tc main_v2)) (Vm (Proc.devRef .tc main_v6)) (Vm (Proc.devRef .tc main_v9))
          (Vm (Proc.devRef .tc main_v15)) (Vm (Proc.devRef .tc main_v18)) (Vm (Proc.devRef .tc main_cst_3)) := by
  dsimp only [hostOps1_2, hostOps1_1]
  after_results_simp
  rfl

end Cert.KernelIdeal.Hand

end
-- ==== Proof.KernelValue.lean ====
/-
  The idealized kernel program's result array as ONE function of its arguments.

  Read backwards from the last boundary: the result buffer holds the second launch's output array, which is
  `(agg + bias) · mask` of the arrays the launch was entered with; the aggregate it was entered with is the neighbour
  aggregation of the first launch's output array over the edge list; and the first launch's output array is the masked
  product of the features, the mask column and the weights. The host operations in between only convert the mask to a
  column, reshape the bias to a row and compute the aggregation; no argument buffer is written.
-/
import proofs.«177808_j65816078844665_1_alg».proof.Proof.Gen.KernelIdeal.Frame
import proofs.«177808_j65816078844665_1_alg».proof.Proof.HiddenArray
import proofs.«177808_j65816078844665_1_alg».proof.Proof.OutArray
import proofs.«177808_j65816078844665_1_alg».proof.Proof.AggregateKernel
import proofs.«177808_j65816078844665_1_alg».proof.Proof.HostStretches
import Idealize.ShloMosaic.Lib.StableHlo.Run
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.Spec
open Idealize.ShloMosaic.Pipeline (Dat)

variable (m : (ℓ : Loc nD τ sig) → Buf (Elt Ideal) ℓ) (ρ : Dev nD → PrngReg)

/-! ## The first launch's entry contents -/

/-- The features and the weights are as launched when the first launch is entered. -/
theorem entry0_features (c : Dev nD) : V1 m ρ c main_arg0 = m ((c.tc : Thread nD τ).loc main_arg0) := by
  show StableHlo.after hostOps0 (W0 m ρ c) (Proc.devRef .tc main_arg0) = _
  dsimp only [hostOps0]
  after_results <;> rfl
theorem entry0_weights (c : Dev nD) : V1 m ρ c main_arg1 = m ((c.tc : Thread nD τ).loc main_arg1) := by
  show StableHlo.after hostOps0 (W0 m ρ c) (Proc.devRef .tc main_arg1) = _
  dsimp only [hostOps0]
  after_results <;> rfl

/-- The mask column the launches stage is the mask's integers read as reals, one per row. -/
theorem entry0_mask (c : Dev nD) :
    (V1 m ρ c main_v1 : S100000x1.Idx → EReal) = maskColumn (m ((c.tc : Thread nD τ).loc main_arg4)) := by
  show StableHlo.after hostOps0 (W0 m ρ c) (Proc.devRef .tc main_v1) = _
  dsimp only [hostOps0]
  after_results
  funext i
  refine (shapeCast_apply _ _ i (ix1 (row i)) ?_).trans rfl
  show (S100000.rowMajor (ix1 (row i))).val = (S100000x1.rowMajor i).val
  rw [Shape.rowMajor_val_one, Shape.rowMajor_val_two]
  show (i 0).val = (i 0).val * 1 + (i 1).val
  have h1 : (i 1).val < 1 := (i 1).isLt
  omega

/-! ## The first launch's exit contents -/

/-- After the first launch its output array is the masked product of the arguments. -/
theorem exit0_hidden (c : Dev nD) :
    (W2 m ρ c (Proc.devRef .tc main_v2) : S100000x128.Idx → EReal)
      = maskedProduct (m ((c.tc : Thread nD τ).loc main_arg0)) (maskColumn (m ((c.tc : Thread nD τ).loc main_arg4)))
          (m ((c.tc : Thread nD τ).loc main_arg1)) := by
  refine (W2_arr m ρ c 3).trans ?_
  rw [hidden_array (V1 m ρ) c, entry0_features, entry0_weights, entry0_mask]

/-- The mask column is not written by the first launch (it is one of its inputs). -/
theorem exit0_mask (c : Dev nD) :
    (W2 m ρ c (Proc.devRef .tc main_v1) : S100000x1.Idx → EReal) = maskColumn (m ((c.tc : Thread nD τ).loc main_arg4)) :=
  ((W2_arr m ρ c 1).trans (((dat0 (V1 m ρ) c).arrAt_in 1 rfl _).trans (A_eq0 (V1 m ρ) c 1))).trans (entry0_mask m ρ c)

/-- The bias and the edge list are neither staged nor written by the first launch, nor written before it. -/
theorem exit0_bias (c : Dev nD) : W2 m ρ c (Proc.devRef .tc main_arg2) = m ((c.tc : Thread nD τ).loc main_arg2) := by
  refine (W2_of_ne m ρ c main_arg2 (by decide)).trans ?_
  show StableHlo.after hostOps0 (W0 m ρ c) (Proc.devRef .tc main_arg2) = _
  dsimp only [hostOps0]
  after_results <;> rfl
theorem exit0_edges (c : Dev nD) : W2 m ρ c (Proc.devRef .tc main_arg3) = m ((c.tc : Thread nD τ).loc main_arg3) := by
  refine (W2_of_ne m ρ c main_arg3 (by decide)).trans ?_
  show StableHlo.after hostOps0 (W0 m ρ c) (Proc.devRef .tc main_arg3) = _
  dsimp only [hostOps0]
  after_results <;> rfl

/-! ## The second launch's entry contents -/

/-- The mask column is untouched by the host operations between the launches. -/
theorem entry1_mask (c : Dev nD) :
    (V5 m ρ c main_v1 : S100000x1.Idx → EReal) = maskColumn (m ((c.tc : Thread nD τ).loc main_arg4)) := by
  refine Eq.trans ?_ (exit0_mask m ρ c)
  show StableHlo.after hostOps1_2 (StableHlo.after hostOps1_1 (StableHlo.after hostOps1 (W2 m ρ c))) (Proc.devRef .tc main_v1) = _
  dsimp only [hostOps1_2, hostOps1_1, hostOps1]
  after_results_simp

/-- The bias row the second launch stages is the bias, one entry per lane. -/
theorem entry1_bias (c : Dev nD) :
    (V5 m ρ c main_v48 : S1x128.Idx → EReal) = biasRow (m ((c.tc : Thread nD τ).loc main_arg2)) := by
  have h : (V5 m ρ c main_v48 : S1x128.Idx → EReal)
      = shapeCast S1x128 (W2 m ρ c (Proc.devRef .tc main_arg2) : S128.Idx → EReal) shapeCasts_S128_S1x128 := by
    show StableHlo.after hostOps1_2 (StableHlo.after hostOps1_1 (StableHlo.after hostOps1 (W2 m ρ c))) (Proc.devRef .tc main_v48) = _
    dsimp only [hostOps1_2, hostOps1_1, hostOps1]
    after_results_simp <;> rfl
  rw [h, exit0_bias]
  funext i
  refine (shapeCast_apply _ _ i (ix1 (lane i)) ?_).trans rfl
  show (S128.rowMajor (ix1 (lane i))).val = (S1x128.rowMajor i).val
  rw [Shape.rowMajor_val_one, Shape.rowMajor_val_two]
  show (i 1).val = (i 0).val * 128 + (i 1).val
  have h0 : (i 0).val < 1 := (i 0).isLt
  omega

/-- The aggregate the second launch stages is the neighbour aggregation of the first launch's output array. -/
theorem entry1_aggregate (c : Dev nD) :
    (V5 m ρ c main_v47 : S100000x128.Idx → EReal)
      = aggregate (F := Ideal) (W2 m ρ c (Proc.devRef .tc main_v2)) (W2 m ρ c (Proc.devRef .tc main_arg3)) := by
  have h := stretch23_aggregate (F := Ideal) (StableHlo.after hostOps1 (W2 m ρ c))
  rw [stretch1_hidden, stretch1_sources, stretch1_targets, stretch1_positive, stretch1_invSqrt, stretch1_zero] at h
  exact h

/-! ## The result -/

/-- The last boundary's contents at the result buffer, as one function of the arguments. -/
theorem kernel_value (c : Dev nD) :
    (W6 m ρ c (Proc.devRef .tc main_v49) : S100000x128.Idx → EReal)
      = finish (aggregate (F := Ideal)
            (maskedProduct (m ((c.tc : Thread nD τ).loc main_arg0)) (maskColumn (m ((c.tc : Thread nD τ).loc main_arg4)))
              (m ((c.tc : Thread nD τ).loc main_arg1)))
            (m ((c.tc : Thread nD τ).loc main_arg3)))
          (biasRow (m ((c.tc : Thread nD τ).loc main_arg2))) (maskColumn (m ((c.tc : Thread nD τ).loc main_arg4))) := by
  refine (W6_arr m ρ c 3).trans ?_
  rw [out_array (V5 m ρ) c, entry1_aggregate, entry1_bias, entry1_mask, exit0_hidden, exit0_edges]

end Cert.KernelIdeal.Hand

end
-- ==== Proof.AggregateReference.lean ====
/-
  The neighbour aggregation, as the reference applies it to the hidden array: a function of the hidden array `h` and the
  edge list `ei`, cut at its seams and otherwise never opened.

  `sources` / `targets` are the edge list's two rows, each followed by the self loops `0 … n-1`. The degree of a node is
  the number of edges arriving at it (a scatter-add of ones over the targets); `positive` marks the nodes of positive
  degree and `invSqrt` is `rsqrt (max degree 1)`. `gatherScatter` forms, per edge, the message
  `h[source] · (dinv[source] · dinv[target])` with `dinv = positive ? invSqrt : 0` (an index below zero wrapped once by
  `n`), and scatter-adds the messages into a zero array at the targets.
-/
import proofs.«177808_j65816078844665_1_alg».proof.Proof.Gen.ReferenceIdeal

set_option maxRecDepth 8192

noncomputable section

namespace Cert.ReferenceIdeal.Hand

open Cert.ReferenceIdeal Cert.ReferenceIdeal.Gen Idealize.ShloMosaic

variable {F : FTy → Type} [FloatOps F]

/-- The edge list's first row followed by the self loops. -/
def sources (ei : IVec S2x625000 32) : IVec S725000 32 :=
  (concatenate S725000 0 [⟨S625000, (shapeCast _ (extractStridedSlice S1x625000 ![0, 0] ei slices_S2x625000_S1x625000_0_0) shapeCasts_S1x625000_S625000)⟩, ⟨S100000, (iotaInDim S100000 32 0)⟩] concatenates_S625000_S100000_S725000_d0)

/-- The edge list's second row followed by the self loops. -/
def targets (ei : IVec S2x625000 32) : IVec S725000 32 :=
  (concatenate S725000 0 [⟨S625000, (shapeCast _ (extractStridedSlice S1x625000 ![1, 0] ei slices_S2x625000_S1x625000_1_0) shapeCasts_S1x625000_S625000)⟩, ⟨S100000, (iotaInDim S100000 32 0)⟩] concatenates_S625000_S100000_S725000_d0)

/-- The nodes at which some edge arrives: the count of arriving edges (a scatter-add of ones into zeros) is positive. -/
def positive (d : IVec S725000 32) : IVec S100000 1 :=
  (cmpf (F := F) .ogt (Host.scatterAdd scatter_S100000_S725000x1_S725000_n_0_0_1 (broadcastInDim S100000 ![] bcast_S_S100000 (constant S_ .f32 0x00000000#32)) (broadcastInDim S725000x1 ![0] bcast_S725000_S725000x1_0 d) (broadcastInDim S725000 ![] bcast_S_S725000 (constant S_ .f32 0x3F800000#32))) (broadcastInDim S100000 ![] bcast_S_S100000 (constant S_ .f32 0x00000000#32)))

/-- `rsqrt (max degree 1)` of the same count. -/
def invSqrt (d : IVec S725000 32) : FVec F S100000 .f32 :=
  (Host.rsqrt (maximumf (Host.scatterAdd scatter_S100000_S725000x1_S725000_n_0_0_1 (broadcastInDim S100000 ![] bcast_S_S100000 (constant S_ .f32 0x00000000#32)) (broadcastInDim S725000x1 ![0] bcast_S725000_S725000x1_0 d) (broadcastInDim S725000 ![] bcast_S_S725000 (constant S_ .f32 0x3F800000#32))) (broadcastInDim S100000 ![] bcast_S_S100000 (constant S_ .f32 0x3F800000#32))))

/-- Gather the hidden rows at the sources, scale each by the two end points' normalisers, scatter-add at the targets. -/
def gatherScatter (h : FVec F S100000x128 .f32) (s d : IVec S725000 32) (pos : IVec S100000 1) (rs : FVec F S100000 .f32)
    (z : FVec F S_ .f32) : FVec F S100000x128 .f32 :=
  (Host.scatterAdd scatter_S100000x128_S725000x1_S725000x128_1_0_0_1 (broadcastInDim S100000x128 ![] bcast_S_S100000x128 (constant S_ .f32 0x00000000#32)) (broadcastInDim S725000x1 ![0] bcast_S725000_S725000x1_0 d) (mulf (Host.gather gather_S100000x128_S725000x1_S725000x128_1_0_n_n_0_1_1128 h (broadcastInDim S725000x1 ![0] bcast_S725000_S725000x1_0 (select (cmpi .slt s (broadcastInDim S725000 ![] bcast_S_S725000 (constantI S_ 32 0#32))) (addi s (broadcastInDim S725000 ![] bcast_S_S725000 (constantI S_ 32 100000#32))) s))) (broadcastInDim S725000x128 ![0, 1] bcast_S725000x1_S725000x128_0_1 (broadcastInDim S725000x1 ![0] bcast_S725000_S725000x1_0 (mulf (Host.gather gather_S100000_S725000x1_S725000_n_0_n_n_0_1_1 (select pos rs (broadcastInDim S100000 ![] bcast_S_S100000 (id z))) (broadcastInDim S725000x1 ![0] bcast_S725000_S725000x1_0 (select (cmpi .slt s (broadcastInDim S725000 ![] bcast_S_S725000 (constantI S_ 32 0#32))) (addi s (broadcastInDim S725000 ![] bcast_S_S725000 (constantI S_ 32 100000#32))) s))) (Host.gather gather_S100000_S725000x1_S725000_n_0_n_n_0_1_1 (select pos rs (broadcastInDim S100000 ![] bcast_S_S100000 (id z))) (broadcastInDim S725000x1 ![0] bcast_S725000_S725000x1_0 (select (cmpi .slt d (broadcastInDim S725000 ![] bcast_S_S725000 (constantI S_ 32 0#32))) (addi d (broadcastInDim S725000 ![] bcast_S_S725000 (constantI S_ 32 100000#32))) d))))))))

/-- The normalised neighbour aggregation of `h` over the edge list `ei`. -/
def aggregate (h : FVec F S100000x128 .f32) (ei : IVec S2x625000 32) : FVec F S100000x128 .f32 :=
  gatherScatter h (sources ei) (targets ei) (positive (F := F) (targets ei)) (invSqrt (targets ei)) (constant S_ .f32 0x00000000#32)

end Cert.ReferenceIdeal.Hand

end
-- ==== Proof.ReferenceValue.lean ====
/-
  The idealized reference's result as the SAME function of the arguments as the kernel program's.

  The reference converts the mask to reals, multiplies the features' rows by it, contracts with the weights
  (`dot_general`: at `(r, c)` the sum over `k` of `(x[r,k] · m[r]) · W[k,c]`), applies the neighbour aggregation,
  adds the bias broadcast over the rows and multiplies by the mask broadcast over the lanes. Read index by index these
  are the masked product, the aggregation of it, and `(agg + bias) · mask`.
-/
import proofs.«177808_j65816078844665_1_alg».proof.Proof.RefRead
import proofs.«177808_j65816078844665_1_alg».proof.Proof.AggregateReference
import proofs.«177808_j65816078844665_1_alg».proof.Proof.Spec

noncomputable section

open scoped BigOperators

namespace Cert.ReferenceIdeal.Hand

open Cert.ReferenceIdeal Cert.ReferenceIdeal.Gen Cert.ReferenceIdeal.ReadP Idealize.ShloMosaic Idealize.ShloMosaic.TcCoe Idealize.SL.Sem
open Idealize.ShloMosaic.ValueIdx Cert.Spec

/-- The mask broadcast to a column, at `(r, 0)`, is the integer `mask[r]` read as a real. -/
theorem mask_column_eq (x4 : (⟨S100000, .i32⟩ : BufTy).Contents (Elt Ideal)) :
    val_main_v1 (F := Ideal) x4 = maskColumn x4 := by
  funext i
  rw [val_main_v1_apply, val_main_v0_apply]
  have e : idx_main_v1 i = ix1 (row i) := funext fun a => Fin.ext (by match a with | ⟨0, _⟩ => rfl)
  rw [e]
  rfl

/-- The reference's `dot_general` of the masked features and the weights is the masked product. -/
theorem hidden_eq (x0 : (⟨S100000x128, .f32⟩ : BufTy).Contents (Elt Ideal)) (x1 : (⟨S128x128, .f32⟩ : BufTy).Contents (Elt Ideal))
    (x4 : (⟨S100000, .i32⟩ : BufTy).Contents (Elt Ideal)) :
    val_main_v4 (F := Ideal) x0 x1 x4 = maskedProduct x0 (maskColumn x4) x1 := by
  funext i
  rw [val_main_v4_apply]
  unfold maskedProduct
  refine Finset.sum_congr rfl fun k _ => ?_
  have el : lidx_main_v4 i k = ix2 (row i) k := funext fun a => Fin.ext (by match a with | ⟨0, _⟩ => rfl | ⟨1, _⟩ => rfl)
  have er : ridx_main_v4 i k = ix2 k (lane i) := funext fun a => Fin.ext (by match a with | ⟨0, _⟩ => rfl | ⟨1, _⟩ => rfl)
  have ec : idx_main_v2 (ix2 (row i) k) = ix2 (row i) (0 : Fin 1) :=
    funext fun a => Fin.ext (by match a with | ⟨0, _⟩ => rfl | ⟨1, _⟩ => rfl)
  rw [el, er, val_main_v3_apply, val_main_v2_apply, ec, mask_column_eq]
  rfl

/-- The reference's second scatter is the neighbour aggregation of its `dot_general`'s result. -/
theorem aggregate_eq (x0 : (⟨S100000x128, .f32⟩ : BufTy).Contents (Elt Ideal)) (x1 : (⟨S128x128, .f32⟩ : BufTy).Contents (Elt Ideal))
    (x3 : (⟨S2x625000, .i32⟩ : BufTy).Contents (Elt Ideal)) (x4 : (⟨S100000, .i32⟩ : BufTy).Contents (Elt Ideal)) :
    val_main_v49 (F := Ideal) x0 x1 x3 x4 = aggregate (F := Ideal) (val_main_v4 (F := Ideal) x0 x1 x4) x3 := by
  unfold aggregate
  rfl

/-- The reference's last stage, index by index: `(agg + bias) · mask` of the aggregation of the masked product. -/
theorem result_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S2x625000, .i32⟩ : BufTy).Contents (Elt Ideal))
    (x4 : (⟨S100000, .i32⟩ : BufTy).Contents (Elt Ideal)) :
    val_main_v54 (F := Ideal) x0 x1 x2 x3 x4
      = finish (aggregate (F := Ideal) (maskedProduct x0 (maskColumn x4) x1) x3) (biasRow x2) (maskColumn x4) := by
  funext i
  have eb : idx_main_v50 (idx_main_v51 i) = ix1 (lane i) := funext fun a => Fin.ext (by match a with | ⟨0, _⟩ => rfl)
  have em : idx_main_v53 i = ix2 (row i) (0 : Fin 1) :=
    funext fun a => Fin.ext (by match a with | ⟨0, _⟩ => rfl | ⟨1, _⟩ => rfl)
  rw [val_main_v54_apply, val_main_v52_apply, val_main_v51_apply, val_main_v50_apply, val_main_v53_apply, eb, em,
    mask_column_eq, aggregate_eq, hidden_eq]
  rfl

/-- The term the reference's run ends with is that function of the argument arrays. -/
theorem reference_value (m : (ℓ : Loc nD τ sig) → Buf (Elt Ideal) ℓ) (c : Dev nD) :
    (Cert.ReferenceIdeal.RunP.res_main_v54 (F := Ideal) m c : S100000x128.Idx → EReal)
      = finish (aggregate (F := Ideal)
            (maskedProduct (m ((c.tc : Thread nD τ).loc main_arg0)) (maskColumn (m ((c.tc : Thread nD τ).loc main_arg4)))
              (m ((c.tc : Thread nD τ).loc main_arg1)))
            (m ((c.tc : Thread nD τ).loc main_arg3)))
          (biasRow (m ((c.tc : Thread nD τ).loc main_arg2))) (maskColumn (m ((c.tc : Thread nD τ).loc main_arg4))) :=
  (val_main_v54_eq (F := Ideal) m c).trans (result_eq _ _ _ _ _)

end Cert.ReferenceIdeal.Hand

end
-- ==== Proof.AggregateSame.lean ====
/-
  The two programs apply the SAME neighbour aggregation: the operation lists are the same text, and the dimension
  records each program states for its scatters and gathers hold the same numbers, so the two functions are one.
-/
import proofs.«177808_j65816078844665_1_alg».proof.Proof.AggregateKernel
import proofs.«177808_j65816078844665_1_alg».proof.Proof.AggregateReference

noncomputable section

namespace Cert.Proof

open Idealize.ShloMosaic

/-- The kernel program's aggregation and the reference's are one function of the hidden array and the edge list. -/
theorem aggregate_same {F : FTy → Type} [FloatOps F] (h : FVec F Cert.KernelIdeal.S100000x128 .f32)
    (ei : IVec Cert.KernelIdeal.S2x625000 32) :
    Cert.KernelIdeal.Hand.aggregate h ei = Cert.ReferenceIdeal.Hand.aggregate h ei := rfl

end Cert.Proof

end
-- ==== Proof.lean ====
/-
  A masked graph convolution: the kernel program (two launches around a host-side neighbour aggregation) against its
  plain reference, equal as extended reals.

  With  m  the node mask read as reals,  x  the features,  W  the weights,  b  the bias and  A  the normalised
  neighbour aggregation over the edge list (self loops added, each message scaled by the inverse square roots of the two
  end points' degrees), both programs compute

      out[r, c] = ( A( ∑ₖ (x[·, k] · m[·]) · W[k, ·] )[r, c] + b[c] ) · m[r].

  The kernel's first launch forms the masked product block by block (ten row blocks; narrowing both operands to bf16
  and accumulating from zero are the identity on the extended reals), the host applies  A , and the second launch adds
  the bias row and multiplies by the mask column, again block by block. The reference does the same with one
  `dot_general` and whole-array broadcasts. The two sums over  k  are the same sum term by term, so no law of the
  extended reals beyond reading each operation at an index is used, and the precondition (finite inputs) is never opened.
  A  is the same operation list in both programs and is carried as one function.

  The idealization rewrote no operation, so that conjunct is trivial; the three frames are the generated frame
  certificates and the reference's run with its result dropped.
-/
import proofs.«177808_j65816078844665_1_alg».proof.Defs
import proofs.«177808_j65816078844665_1_alg».proof.Proof.Gen.Kernel
import proofs.«177808_j65816078844665_1_alg».proof.Proof.Gen.Kernel.Skeleton
import proofs.«177808_j65816078844665_1_alg».proof.Proof.Gen.Kernel.Launch
import proofs.«177808_j65816078844665_1_alg».proof.Proof.Gen.Kernel.Points
import proofs.«177808_j65816078844665_1_alg».proof.Proof.Gen.Kernel.Frame
import proofs.«177808_j65816078844665_1_alg».proof.Proof.Gen.KernelIdeal
import proofs.«177808_j65816078844665_1_alg».proof.Proof.Gen.KernelIdeal.Skeleton
import proofs.«177808_j65816078844665_1_alg».proof.Proof.Gen.KernelIdeal.Launch
import proofs.«177808_j65816078844665_1_alg».proof.Proof.Gen.KernelIdeal.Points
import proofs.«177808_j65816078844665_1_alg».proof.Proof.Gen.KernelIdeal.Frame
import proofs.«177808_j65816078844665_1_alg».proof.Proof.Gen.ReferenceIdeal
import proofs.«177808_j65816078844665_1_alg».proof.Proof.Gen.Pre_finite_inputs
import proofs.«177808_j65816078844665_1_alg».proof.Proof.RefRun
import proofs.«177808_j65816078844665_1_alg».proof.Proof.RefRead
import proofs.«177808_j65816078844665_1_alg».proof.Proof.KernelRun
import proofs.«177808_j65816078844665_1_alg».proof.Proof.KernelValue
import proofs.«177808_j65816078844665_1_alg».proof.Proof.ReferenceValue
import proofs.«177808_j65816078844665_1_alg».proof.Proof.AggregateSame
import Idealize.ShloMosaic.Adequacy
import Idealize.ShloMosaic.Init

noncomputable section

namespace Cert.Proof

open Idealize.ShloMosaic Idealize.SL.Sem Cert.Spec

/-- The word-level kernel program runs, faults nowhere and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the idealized reference: its run, with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- From memories agreeing on the arguments, both idealized programs end with the same result array: each is
    `(A(masked product) + bias) · mask` of the arguments, and the two aggregations are one function. -/
theorem algebraic : Cert.algebraic_KernelIdeal_ReferenceIdeal := by
  intro m ρ m' ρ' _ hagree
  refine ⟨fun c => Cert.KernelIdeal.Gen.W6 m ρ c (Proc.devRef .tc Cert.KernelIdeal.main_v49),
    Cert.KernelIdeal.Hand.run_result (F := Ideal) m ρ, ?_⟩
  refine (θ_run Cert.ReferenceIdeal.defs _ _).mono (fun _ h c => ⟨(h c).1.trans ?_, (h c).2⟩)
    (Cert.ReferenceIdeal.RunP.run (F := Ideal) m' ρ')
  refine (Cert.ReferenceIdeal.Hand.reference_value m' c).trans ?_
  refine Eq.trans ?_ (Cert.KernelIdeal.Hand.kernel_value m ρ c).symm
  obtain ⟨h0, h1, h2, h3, h4⟩ := hagree c
  rw [h0, h1, h2, h3, h4, aggregate_same]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
